-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128 .f32) (main_arg3 : IVec S1600000 32) (main_arg4 : IVec S1600000 32) (main_arg5 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1600000 .f32 := Host.absf main_arg5
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S10000x128 : Shape := ⟨2, ![10000, 128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 24
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S128x128, .f32⟩
  | .hbm, ⟨7, _⟩ => ⟨S100000x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S128x128, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Payload.lean ====
/-
  The body's arithmetic, read at an index. One grid point holds a block of 10000 rows of the node features, the whole
  transposed weight matrix and the whole bias, and stores (block · weights) + bias. On the extended reals the conversions
  to bf16 on the way into the product are the identity and the product accumulates into a zero array, so at row `p` and
  column `q` of the block what is stored is the sum over the 128 contracted positions `k` of block[p,k] · weights[k,q],
  plus bias[q].
-/
import proofs.«128577_j28003186770155_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Projection

open Cert.KernelIdeal Cert.KernelIdeal.Gen Idealize.ShloMosaic Idealize.ShloMosaic.ValueIdx

/-- The left operand of the block product is read at the output's row: axis 0 is not contracted. -/
theorem lhs_row (i : S10000x128.Idx) (s : dot_S10000x128_S128x128_S10000x128_1_0_0_1_n_n.contr.Idx) :
    (dot_S10000x128_S128x128_S10000x128_1_0_0_1_n_n.lhsIdx i s 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The right operand of the block product is read at the output's column: axis 1 is not contracted. -/
theorem rhs_col (i : S10000x128.Idx) (s : dot_S10000x128_S128x128_S10000x128_1_0_0_1_n_n.contr.Idx) :
    (dot_S10000x128_S128x128_S10000x128_1_0_0_1_n_n.rhsIdx i s 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The block product into a zero accumulator, at row `p` and column `q`: the sum over the one contracted axis, of
    extent 128, of left[p,k] · right[k,q]. -/
theorem block_product_apply (l : FVec Ideal S10000x128 .bf16) (r : FVec Ideal S128x128 .bf16) (p : Fin 10000) (q : Fin 128) :
    matmul (F := Ideal) dot_S10000x128_S128x128_S10000x128_1_0_0_1_n_n none l r (constant (F := Ideal) S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact rhs_col _ _)
  rw [el, er]

/-- What the body stores, at row `p` and column `q` of its block. -/
theorem stored_apply (x0 : Vec Ideal S10000x128 .f32) (x1 : Vec Ideal S128x128 .f32) (x2 : Vec Ideal S128 .f32)
    (p : Fin 10000) (q : Fin 128) :
    k0_pay1 (F := Ideal) x0 x1 x2 (ix2 p q) = (∑ k : Fin 128, x0 (ix2 p k) * x1 (ix2 k q)) + x2 (ix1 q) := by
  unfold k0_pay1
  refine (addf_apply _ _ _).trans ?_
  refine congrArg₂ (· + ·) ?_ ?_
  · refine (block_product_apply _ _ p q).trans ?_
    refine Finset.sum_congr rfl fun k _ => ?_
    rw [shapeCast_self]
    rfl
  · refine (broadcastTo_1b_ab_apply _ _ p q).trans ?_
    exact shapeCast_a_1a_apply x2 _ 0 q

end Cert.KernelIdeal.Projection

end
-- ==== Proof.Spec.lean ====
/-
  The dense projection that both programs compute before their shared aggregation step: node r's 128 input features
  against output feature q's weights, plus that feature's bias. On the extended reals
      h[r, q] = (Σ_{k < 128} x[r, k] · wt[k, q]) + b[q],
  where wt is the weight matrix already transposed (wt[k, q] = W[q, k]). Both programs transpose W by the same host
  operation before anything else, so the transposition itself never has to be opened.
-/
import Idealize.ShloMosaic.PureOps.Ideal
import Idealize.ShloMosaic.Lib.ValueIdx

noncomputable section

namespace Cert.Spec

open Idealize.ShloMosaic Idealize.ShloMosaic.ValueIdx

/-- The projection at node `r` and output feature `q`. -/
def projAt (x : FVec Ideal ⟨2, ![100000, 128]⟩ .f32) (wt : FVec Ideal ⟨2, ![128, 128]⟩ .f32) (b : FVec Ideal ⟨1, ![128]⟩ .f32)
    (r : Fin 100000) (q : Fin 128) : EReal :=
  (∑ k : Fin 128, x (ix2 r k) * wt (ix2 k q)) + b (ix1 q)

/-- The projection as one array over nodes × output features. -/
def proj (x : FVec Ideal ⟨2, ![100000, 128]⟩ .f32) (wt : FVec Ideal ⟨2, ![128, 128]⟩ .f32) (b : FVec Ideal ⟨1, ![128]⟩ .f32) :
    FVec Ideal ⟨2, ![100000, 128]⟩ .f32 :=
  fun i => projAt x wt b (i 0) (i 1)

end Cert.Spec

end
-- ==== Proof.Blocks.lean ====
/-
  From blocks to the array. The grid has ten points; point t holds rows 10000·t … 10000·t + 9999 of the node features
  (all 128 columns), the whole transposed weight matrix and the whole bias, and writes back rows 10000·t … of the
  projection. So what each point writes back is a block of ONE array — the projection of the arrays as the region
  finds them — and the ten blocks tile that array's 100000 rows.
-/
import proofs.«128577_j28003186770155_1_alg».proof.Proof.Gen.KernelIdeal.Frame
import proofs.«128577_j28003186770155_1_alg».proof.Proof.Payload
import proofs.«128577_j28003186770155_1_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets2 : (![0, 0] : Fin 2 → Nat) = fun _ => 0 := funext fun a => by fin_cases a <;> rfl
theorem zero_offsets1 : (![0] : Fin 1 → Nat) = fun _ => 0 := funext fun a => by fin_cases a <;> rfl

/-- Where each window's block sits at point `t`, decided over the ten points: the features' and the result's blocks
    are block `t` of the rows and span the columns; the weights' and the bias's blocks are their whole arrays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The features' block at point `t`, read at `x`, is the features array at row 10000·t + x₀, column x₁. -/
theorem features_block (c : Dev nD) (t : Fin cfg0.N) (x : S10000x128.Idx) (k : S100000x128.Idx)
    (hk0 : (k 0).val = 10000 * t.val + (x 0).val) (hk1 : (k 1).val = (x 1).val) :
    (iblk m c 0 t : Vec Ideal S10000x128 .f32) x = (V m c main_arg0 : S100000x128.Idx → EReal) k := by
  obtain ⟨e0, e1, -, -, -, -, -⟩ := block_indices t
  unfold iblk
  rw [View.read_apply]
  show V m c main_arg0 _ = V m c main_arg0 _
  refine congrArg (V m c main_arg0) ?_
  funext a
  apply Fin.ext
  match a with
  | ⟨0, _⟩ => show win0_0.index t (0 : Fin 2) * 10000 + 1 * (x 0).val = (k 0).val; omega
  | ⟨1, _⟩ => show win0_0.index t (1 : Fin 2) * 128 + 1 * (x 1).val = (k 1).val; omega

/-- The weights' block at every point is the whole transposed weight matrix. -/
theorem weights_block (c : Dev nD) (t : Fin cfg0.N) :
    (iblk m c 1 t : Vec Ideal S128x128 .f32) = (V m c main_v0 : S128x128.Idx → EReal) := by
  obtain ⟨-, -, e2, e3, -, -, -⟩ := block_indices t
  funext x
  unfold iblk
  rw [View.read_apply]
  show V m c main_v0 _ = V m c main_v0 x
  refine congrArg (V m c main_v0) ?_
  funext a
  apply Fin.ext
  match a with
  | ⟨0, _⟩ => show win0_1.index t (0 : Fin 2) * 128 + 1 * (x 0).val = (x 0).val; omega
  | ⟨1, _⟩ => show win0_1.index t (1 : Fin 2) * 128 + 1 * (x 1).val = (x 1).val; omega

/-- The bias's block at every point is the whole bias. -/
theorem bias_block (c : Dev nD) (t : Fin cfg0.N) :
    (iblk m c 2 t : Vec Ideal S128 .f32) = (V m c main_arg2 : S128.Idx → EReal) := by
  obtain ⟨-, -, -, -, e4, -, -⟩ := block_indices t
  funext x
  unfold iblk
  rw [View.read_apply]
  show V m c main_arg2 _ = V m c main_arg2 x
  refine congrArg (V m c main_arg2) ?_
  funext a
  apply Fin.ext
  match a with
  | ⟨0, _⟩ => show win0_2.index t (0 : Fin 1) * 128 + 1 * (x 0).val = (x 0).val; omega

/-- What the body stores at row `p`, column `q` of a point's block is the projection at array row `r`, when the
    point's features block at row `p` is the features array at row `r`. -/
theorem stored_eq_proj (X : FVec Ideal ⟨2, ![100000, 128]⟩ .f32) (WT : FVec Ideal ⟨2, ![128, 128]⟩ .f32)
    (B : FVec Ideal ⟨1, ![128]⟩ .f32) (x0 : Vec Ideal S10000x128 .f32) (p : Fin 10000) (q : Fin 128) (r : Fin 100000)
    (h0 : ∀ k : Fin 128, x0 (ix2 p k) = X (ix2 r k)) :
    k0_pay1 (F := Ideal) x0 WT B (ix2 p q) = Spec.projAt X WT B r q := by
  rw [Projection.stored_apply]
  unfold Spec.projAt
  exact congrArg (· + B (ix1 q)) (Finset.sum_congr rfl fun k _ => by rw [h0 k])

/-- WHAT POINT `t` WRITES BACK is block `t` of the projection of the arrays as the region finds them. -/
theorem flushed_eq (c : Dev nD) (t : Fin cfg0.N) :
    (dats m 0 c).flushed 3 t = ((cfg0.win 3).blk t).view.read (Elt Ideal)
      (Spec.proj (V m c main_arg0) (V m c main_v0) (V m c main_arg2)) := by
  show (cfg0.win 3).cut (grid0.coords t) ((dats m 0 c).after 3 t) = _
  rw [after0_3]
  unfold out0_3
  rw [View.canon_unit_zero zero_offsets2]
  simp only [View.ld_unit_zero (S := S10000x128) zero_offsets2, View.ld_unit_zero (S := S128x128) zero_offsets2,
    View.ld_unit_zero (S := S128) zero_offsets1]
  rw [weights_block, bias_block]
  obtain ⟨-, -, -, -, -, e5, e6⟩ := block_indices t
  funext j
  show k0_pay1 (iblk m c 0 t) (V m c main_v0) (V m c main_arg2) j
    = Spec.proj (V m c main_arg0) (V m c main_v0) (V m c main_arg2) (((cfg0.win 3).blk t).view.emb j)
  have hr0 : ((((cfg0.win 3).blk t).view.emb j) 0).val = 10000 * t.val + (j 0).val := by
    show win0_3.index t (0 : Fin 2) * 10000 + 1 * (j 0).val = _; omega
  have hr1 : ((((cfg0.win 3).blk t).view.emb j) 1).val = (j 1).val := by
    show win0_3.index t (1 : Fin 2) * 128 + 1 * (j 1).val = _; omega
  refine (congrArg (k0_pay1 (F := Ideal) (iblk m c 0 t) (V m c main_v0) (V m c main_arg2)) (eq_ix2 j)).trans ?_
  refine (stored_eq_proj (V m c main_arg0) (V m c main_v0) (V m c main_arg2) (iblk m c 0 t) (j 0) (j 1)
    ((((cfg0.win 3).blk t).view.emb j) 0) (fun k => features_block m c t _ _ hr0 rfl)).trans ?_
  unfold Spec.proj
  exact congrArg (Spec.projAt _ _ _ _) (Fin.ext hr1.symm)

/-- An index of the result array is in point `t`'s block iff each coordinate is in the block's range on its axis. -/
theorem mem_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v1).slice (win0_3.rect t)).set ↔ _
  rw [View.set_slice_whole, Rect.mem_set_unit]
  exact Iff.rfl

/-- THE BLOCKS TILE THE ARRAY: row r lies in the block of point r / 10000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  have hlt : (i 0).val / 10000 < cfg0.N := by rw [hN]; omega
  obtain ⟨-, -, -, -, -, e5, e6⟩ := block_indices ⟨(i 0).val / 10000, hlt⟩
  refine ⟨⟨(i 0).val / 10000, hlt⟩, flush0_3 _, ?_⟩
  rw [mem_block]
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    rw [e5]; show (i 0).val / 10000 * 10000 ≤ (i 0).val ∧ (i 0).val < (i 0).val / 10000 * 10000 + 10000; omega
  | ⟨1, _⟩ =>
    show win0_3.index ⟨(i 0).val / 10000, hlt⟩ (1 : Fin 2) * 128 ≤ (i 1).val
      ∧ (i 1).val < win0_3.index ⟨(i 0).val / 10000, hlt⟩ (1 : Fin 2) * 128 + 128
    rw [e6]; omega

/-- THE RESULT OF THE REGION: after the ten points, the kernel's output array is the projection of the arrays as the
    region finds them. -/
theorem final (c : Dev nD) :
    (dats m 0 c).arrAt 3 cfg0.N = Spec.proj (V m c main_arg0) (V m c main_v0) (V m c main_arg2) :=
  (dats m 0 c).arrAt_eq_of_cover 3 _ (fun t _ => flushed_eq m c t) covered

end Cert.KernelIdeal.Blocks

end
-- ==== Proof.Tail.lean ====
/-
  The aggregation both programs end with, as ONE function of the projected features h and the three edge arrays:
  every edge e gathers row cols[e] of h (a negative index counted from the end: cols[e] + 100000), scales it by
  vals[e], and the scaled rows are summed into row rows[e] of a zero array. The two programs apply the same host
  operations here, so this function is only ever applied to equal arguments and is never opened.
-/
import proofs.«128577_j28003186770155_1_alg».proof.KernelIdeal
import proofs.«128577_j28003186770155_1_alg».proof.Proof.Gen.KernelIdeal
import Idealize.ShloMosaic.PureOps.Ideal

noncomputable section

namespace Cert.KernelIdeal.Tail

open Cert.KernelIdeal Cert.KernelIdeal.Gen Idealize.ShloMosaic

/-- Gather, scale, and sum into the destination rows. -/
def aggregate (h : (⟨S100000x128, .f32⟩ : BufTy).Contents (Elt Ideal)) (rows cols : (⟨S1600000, .i32⟩ : BufTy).Contents (Elt Ideal))
    (vals : (⟨S1600000, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 rows)
    (mulf (F := Ideal)
      (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 h
        (broadcastInDim S1600000x1 ![0] bcast_S1600000_S1600000x1_0
          (select
            (cmpi .slt cols (broadcastInDim S1600000 ![] bcast_S_S1600000 (constantI S_ 32 0#32)))
            (addi cols (broadcastInDim S1600000 ![] bcast_S_S1600000 (constantI S_ 32 100000#32)))
            cols))))

end Cert.KernelIdeal.Tail

end
-- ==== Proof.KernelRun.lean ====
/-
  The kernel program's run, read as a value. Before the region the host transposes the weight matrix; the region
  leaves the projection of the launch arrays in its output array (the ten blocks of the previous module); after the
  region the host applies the aggregation to that array and the three edge arrays, none of which the region touches.
  So the program's result is the aggregation of the projection of its arguments, and its arguments end unchanged.
-/
import proofs.«128577_j28003186770155_1_alg».proof.Proof.Gen.KernelIdeal.Frame
import proofs.«128577_j28003186770155_1_alg».proof.Proof.Blocks
import proofs.«128577_j28003186770155_1_alg».proof.Proof.Tail
import Idealize.ShloMosaic.Lib.StableHlo.Run
import Idealize.ShloMosaic.Lib.Pipeline.Value

noncomputable section

namespace Cert.KernelIdeal.Run

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The transposed weights as the region finds them: the host's transposition of the weight argument. -/
theorem weights_entry (c : Dev nD) :
    V m c main_v0 = transpose S128x128 [1, 0] (m ((c.tc : Thread nD τ).loc main_arg1)) transposes_S128x128_S128x128_1_0 := by
  show StableHlo.after hostOps0 (fun b => m (c, b)) (Proc.devRef .tc main_v0) = _
  after_results

/-- The projection of the launch arrays on core `c`. -/
abbrev projected (c : Dev nD) : (⟨S100000x128, .f32⟩ : BufTy).Contents (Elt Ideal) :=
  Spec.proj (m ((c.tc : Thread nD τ).loc main_arg0))
    (transpose S128x128 [1, 0] (m ((c.tc : Thread nD τ).loc main_arg1)) transposes_S128x128_S128x128_1_0)
    (m ((c.tc : Thread nD τ).loc main_arg2))

/-- The region leaves the projection of the launch arrays in its output array. -/
theorem region_result (c : Dev nD) : (dats m 0 c).arrAt 3 cfg0.N = projected m c := by
  rw [Blocks.final m c, V_main_arg0, weights_entry, V_main_arg2]

/-- What the lines after the region find: the region's output array at the projection, -/
theorem tail_finds_h (c : Dev nD) :
    Pipeline.withArrays (cfgs 0).spec c (V0 m c) (fun w => (dats m 0 c).arrAt w (cfgs 0).N) (Proc.devRef .tc main_v1)
      = projected m c :=
  (Pipeline.withArrays_arr spec0 launch0.win.arr_inj c (V0 m c) (fun w => (dats m 0 c).arrAt w cfg0.N) 3).trans (region_result m c)

/-- and the three edge arrays as launched (no window stages them and no host line before the region writes them). -/
theorem tail_finds_rows (c : Dev nD) :
    Pipeline.withArrays (cfgs 0).spec c (V0 m c) (fun w => (dats m 0 c).arrAt w (cfgs 0).N) (Proc.devRef .tc main_arg3)
      = m ((c.tc : Thread nD τ).loc main_arg3) :=
  (Pipeline.withArrays_of_ne _ c (V0 m c) _ main_arg3 (by exact (by decide : ∀ w, Pipeline.arrRef spec0 w ≠ main_arg3))).trans (V_main_arg3 m c)
theorem tail_finds_cols (c : Dev nD) :
    Pipeline.withArrays (cfgs 0).spec c (V0 m c) (fun w => (dats m 0 c).arrAt w (cfgs 0).N) (Proc.devRef .tc main_arg4)
      = m ((c.tc : Thread nD τ).loc main_arg4) :=
  (Pipeline.withArrays_of_ne _ c (V0 m c) _ main_arg4 (by exact (by decide : ∀ w, Pipeline.arrRef spec0 w ≠ main_arg4))).trans (V_main_arg4 m c)
theorem tail_finds_vals (c : Dev nD) :
    Pipeline.withArrays (cfgs 0).spec c (V0 m c) (fun w => (dats m 0 c).arrAt w (cfgs 0).N) (Proc.devRef .tc main_arg5)
      = m ((c.tc : Thread nD τ).loc main_arg5) :=
  (Pipeline.withArrays_of_ne _ c (V0 m c) _ main_arg5 (by exact (by decide : ∀ w, Pipeline.arrRef spec0 w ≠ main_arg5))).trans (V_main_arg5 m c)

/-- THE PROGRAM'S RESULT: the aggregation of the projection of the arguments. -/
theorem result_eq (c : Dev nD) :
    Pipeline.afterTail₀ cfgs (dats m) 0 (V0 m) [hostOps1] c main_v14
      = Tail.aggregate (projected m c) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v14) = _
  after_results
  rw [tail_finds_h, tail_finds_rows, tail_finds_cols, tail_finds_vals]
  rfl

/-- The run: every weakly fair execution terminates with the result at the aggregation of the projection of the
    arguments, and the six arguments as launched. -/
theorem run : θ_run defs (onTc (τ := τ) (main (F := Ideal))) ⟨m, fun _ => 0, ρ⟩ fun r => ∀ c : Dev nD,
      r.2.mem ((c.tc : Thread nD τ).loc main_v14)
        = Tail.aggregate (projected m c) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v14 (Pipeline.mem_restRefs_of main_v14 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.RefValue.lean ====
/-
  The reference program's value. Its first five host operations compute the same projection — the host's dot product
  of the features with the transposed weights is, on the extended reals, the sum over the 128 contracted positions,
  and the bias is broadcast along the rows — and its remaining sixteen are the aggregation, operation for operation
  the ones the kernel program runs after its region.
-/
import proofs.«128577_j28003186770155_1_alg».proof.Proof.Gen.ReferenceIdeal.Read
import proofs.«128577_j28003186770155_1_alg».proof.Proof.Spec
import proofs.«128577_j28003186770155_1_alg».proof.Proof.Tail

noncomputable section

namespace Cert.ReferenceIdeal.RefValue

open Cert.ReferenceIdeal Cert.ReferenceIdeal.Gen Cert.ReferenceIdeal.Read Idealize.ShloMosaic Idealize.ShloMosaic.ValueIdx

/-- The reference's projection stage, index by index, is the projection of its three float arguments. -/
theorem projection_eq (x0 : (⟨S100000x128, .f32⟩ : BufTy).Contents (Elt Ideal)) (x1 : (⟨S128x128, .f32⟩ : BufTy).Contents (Elt Ideal))
    (x2 : (⟨S128, .f32⟩ : BufTy).Contents (Elt Ideal)) :
    val_main_v4 (F := Ideal) x0 x1 x2 = Spec.proj x0 (val_main_v0 (F := Ideal) x1) x2 := by
  funext i
  have el : ∀ k : Fin 128, lidx_main_v1 i k = ix2 (i 0) k := fun k => funext fun a => Fin.ext (by
    match a with
    | ⟨0, _⟩ => rfl
    | ⟨1, _⟩ => rfl)
  have er : ∀ k : Fin 128, ridx_main_v1 i k = ix2 k (i 1) := fun k => funext fun a => Fin.ext (by
    match a with
    | ⟨0, _⟩ => rfl
    | ⟨1, _⟩ => rfl)
  have eb : idx_main_v2 (idx_main_v3 i) = ix1 (i 1) := funext fun a => Fin.ext (by
    match a with
    | ⟨0, _⟩ => rfl)
  rw [val_main_v4_apply, val_main_v1_apply, val_main_v3_apply, val_main_v2_apply]
  simp only [el, er, eb]
  rfl

/-- The reference's result is the aggregation applied to its projection stage and its three edge arguments: the last
    sixteen stages unfold, name by name, to the operations of the aggregation. -/
theorem result_stage (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S1600000, .i32⟩ : BufTy).Contents (Elt Ideal))
    (x5 : (⟨S1600000, .f32⟩ : BufTy).Contents (Elt Ideal)) :
    val_main_v17 (F := Ideal) x0 x1 x2 x3 x4 x5 = Cert.KernelIdeal.Tail.aggregate (val_main_v4 (F := Ideal) x0 x1 x2) x3 x4 x5 := by
  unfold val_main_v17 val_main_v14 val_main_v12
  generalize val_main_v4 (F := Ideal) x0 x1 x2 = h
  rfl

/-- THE REFERENCE'S RESULT: the aggregation of the projection of its arguments. -/
theorem result_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S1600000, .i32⟩ : BufTy).Contents (Elt Ideal))
    (x5 : (⟨S1600000, .f32⟩ : BufTy).Contents (Elt Ideal)) :
    val_main_v17 (F := Ideal) x0 x1 x2 x3 x4 x5
      = Cert.KernelIdeal.Tail.aggregate (Spec.proj x0 (transpose Cert.KernelIdeal.S128x128 [1, 0] x1 Cert.KernelIdeal.Gen.transposes_S128x128_S128x128_1_0) x2) x3 x4 x5 :=
  (result_stage x0 x1 x2 x3 x4 x5).trans (congrArg (fun h => Cert.KernelIdeal.Tail.aggregate h x3 x4 x5) (projection_eq x0 x1 x2))

end Cert.ReferenceIdeal.RefValue

end
-- ==== Proof.lean ====
/-
  A graph layer. Every node's 128 features are projected, h = x · Wᵀ + b, and every edge (r, c, v) then adds v · h[c]
  into row r of the output. The kernel program computes the projection in a kernel over ten blocks of 10000 nodes,
  its operands converted to bf16 on the way into the product, and the aggregation on the host; the reference computes
  both on the host. On the extended reals the conversion is the identity and a product accumulated into zero is the
  plain sum over the 128 contracted positions, so the two projections are one array, entry by entry, with the sums in
  the same order: finiteness of the inputs is never used. The aggregation is one function applied to equal arguments
  on both sides and is never opened.
  The frames of the two kernel programs are the generated ones; the reference's frame is its generated run with the
  result dropped. The idealization rewrote nothing, so the kernel program's idealization claim is trivial.
-/
import proofs.«128577_j28003186770155_1_alg».proof.Defs
import proofs.«128577_j28003186770155_1_alg».proof.Proof.Gen.Kernel
import proofs.«128577_j28003186770155_1_alg».proof.Proof.Gen.Kernel.Skeleton
import proofs.«128577_j28003186770155_1_alg».proof.Proof.Gen.Kernel.Launch
import proofs.«128577_j28003186770155_1_alg».proof.Proof.Gen.Kernel.Points
import proofs.«128577_j28003186770155_1_alg».proof.Proof.Gen.Kernel.Frame
import proofs.«128577_j28003186770155_1_alg».proof.Proof.Gen.KernelIdeal
import proofs.«128577_j28003186770155_1_alg».proof.Proof.Gen.KernelIdeal.Skeleton
import proofs.«128577_j28003186770155_1_alg».proof.Proof.Gen.KernelIdeal.Launch
import proofs.«128577_j28003186770155_1_alg».proof.Proof.Gen.KernelIdeal.Points
import proofs.«128577_j28003186770155_1_alg».proof.Proof.Gen.KernelIdeal.Frame
import proofs.«128577_j28003186770155_1_alg».proof.Proof.Gen.ReferenceIdeal
import proofs.«128577_j28003186770155_1_alg».proof.Proof.Gen.ReferenceIdeal.Run
import proofs.«128577_j28003186770155_1_alg».proof.Proof.Gen.ReferenceIdeal.Read
import proofs.«128577_j28003186770155_1_alg».proof.Proof.Gen.Pre_finite_inputs
import proofs.«128577_j28003186770155_1_alg».proof.Proof.KernelRun
import proofs.«128577_j28003186770155_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- On the extended reals both programs end at the aggregation of the projection of their arguments: the kernel
    program by its run read as a value, the reference by its generated run and the index-by-index reading of its
    projection stage; the arguments agree, so the two results are one array. -/
theorem algebraic : Cert.algebraic_KernelIdeal_ReferenceIdeal := by
  intro m ρ m' ρ' _ hagree
  refine ⟨fun c => Cert.KernelIdeal.Tail.aggregate (Cert.KernelIdeal.Run.projected m c) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
